-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x512 : Shape := ⟨2, ![512, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S131072x512 .f32) (main_arg1 : FVec F S512x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S131072x512 : Shape := ⟨2, ![131072, 512]⟩
abbrev S512x512 : Shape := ⟨2, ![512, 512]⟩
abbrev S_ : Shape := ⟨0, ![]⟩
abbrev S512 : Shape := ⟨1, ![512]⟩
abbrev S1x512 : Shape := ⟨2, ![1, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S512x512, .bf16⟩
  | .hbm, ⟨7, _⟩ => ⟨S131072x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  bcast_S512_S1x512_1 : S512.BroadcastsInDim S1x512 (![1] : Fin 1 → Fin S1x512.rank)
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x512_S2048 : S2048x512.Reduces [1] S2048
  shapeCasts_S2048_S2048x1 : S2048.ShapeCasts S2048x1
  transposes_S512x512_p1_0_S512x512 : S512x512.Transposes [1, 0] S512x512
  broadcasts_S2048x1_S2048x512 : S2048x1.Broadcasts S2048x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x512 : Shape := ⟨2, ![512, 512]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩

abbrev nBuf : Space → Nat
  | .hbm => 39
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S131072x512, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S131072x512, .f32⟩
  | .hbm, ⟨11, _⟩ => ⟨S131072x512, .f32⟩
  | .hbm, ⟨12, _⟩ => ⟨S131072x512, .f32⟩
  | .hbm, ⟨13, _⟩ => ⟨S512x512, .f32⟩
  | .hbm, ⟨14, _⟩ => ⟨S131072x512, .f32⟩
  | .hbm, ⟨15, _⟩ => ⟨S_, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S_, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S131072x512, .f32⟩
  | .hbm, ⟨24, _⟩ => ⟨S131072x512, .f32⟩
  | .hbm, ⟨25, _⟩ => ⟨S_, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S131072x512, .f32⟩
  | .hbm, ⟨30, _⟩ => ⟨S131072x512, .f32⟩
  | .hbm, ⟨31, _⟩ => ⟨S_, .f32⟩
  | .hbm, ⟨32, _⟩ => ⟨S131072x512, .f32⟩
  | .hbm, ⟨33, _⟩ => ⟨S131072x512, .f32⟩
  | .hbm, ⟨34, _⟩ => ⟨S_, .f32⟩
  | .hbm, ⟨35, _⟩ => ⟨S131072, .f32⟩
  | .hbm, ⟨36, _⟩ => ⟨S131072x1, .f32⟩
  | .hbm, ⟨37, _⟩ => ⟨S131072x512, .f32⟩
  | .hbm, ⟨38, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S131072_S131072x1_0 : S131072.BroadcastsInDim S131072x1 (![0] : Fin 1 → Fin S131072x1.rank)
  reducesTo_S512x512_S512_d1 : S512x512.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x512_S512x512_1_0 : S512x512.Transposes [1, 0] S512x512
  bcast_S_S131072x512 : S_.BroadcastsInDim S131072x512 (![] : Fin 0 → Fin S131072x512.rank)
  dot_S131072x512_S512x512_S131072x512_1_0_0_1_n_n_wf : DotDims.WF S131072x512 S512x512 S131072x512 [1] [0] [0] [1] [] []

variable [Facts₀]

def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.SoftAssign.lean ====
/-
  The soft assignment of points to cluster centres by a Student-t kernel with one degree of freedom.

  For a point u and the centres c_0 … c_511 (rows of a 512 × 512 matrix), the squared distance is taken in its
  expanded form |u|² + |c_k|² − 2 ⟨u, c_k⟩, clamped below at 0; the unnormalised weight of centre k is
  1 / (1 + d_k / 1), and the assignment is the weight divided by the sum of the 512 weights of the point. Everything
  is on the extended reals with the float operations' exact readings; the literals 0, 1 and 2 stay the f32 words
  both programs spell. This file states that function, row by row, and the one law the comparison needs:
  raising to the power 1 is the identity on every extended real.
-/
import Idealize.ShloMosaic.PureOps.Ideal.Laws
import Idealize.ShloMosaic.Lib.ValueIdx

noncomputable section

namespace Cert.SoftAssign

open Idealize.ShloMosaic Idealize.ShloMosaic.ValueIdx

/-- Row r of a matrix with 512 columns. -/
def row {n : Nat} (x : (⟨2, ![n, 512]⟩ : Shape).Idx → EReal) (r : Fin n) : Fin 512 → EReal := fun j => x (ix2 r j)

/-- The squared norm of a vector of 512 entries. -/
def normSq (u : Fin 512 → EReal) : EReal := ∑ j : Fin 512, u j * u j

/-- The inner product of two vectors of 512 entries. -/
def dotp (u v : Fin 512 → EReal) : EReal := ∑ j : Fin 512, u j * v j

/-- The unnormalised weight from the two squared norms a, b and the inner product d:
    1 / (1 + max (a + b − 2 d, 0) / 1). -/
def weight (a b d : EReal) : EReal :=
  Ideal.div (Ideal.ofBits .f32 0x3F800000#32)
    (Ideal.ofBits .f32 0x3F800000#32
      + Ideal.div (max (a + b - Ideal.ofBits .f32 0x40000000#32 * d) (Ideal.ofBits .f32 0x00000000#32))
          (Ideal.ofBits .f32 0x3F800000#32))

/-- The weight of the point u for centre k. -/
def wt (u : Fin 512 → EReal) (c : (⟨2, ![512, 512]⟩ : Shape).Idx → EReal) (k : Fin 512) : EReal :=
  weight (normSq u) (normSq (row c k)) (dotp u (row c k))

/-- The assignment of the point u to centre k: its weight over the sum of the point's weights. -/
def soft (u : Fin 512 → EReal) (c : (⟨2, ![512, 512]⟩ : Shape).Idx → EReal) (k : Fin 512) : EReal :=
  Ideal.div (wt u c k) (∑ k' : Fin 512, wt u c k')

/-- The whole array: entry (r, k) is the assignment of point r (row r of x) to centre k. -/
def assign (x : (⟨2, ![131072, 512]⟩ : Shape).Idx → EReal) (c : (⟨2, ![512, 512]⟩ : Shape).Idx → EReal) :
    (⟨2, ![131072, 512]⟩ : Shape).Idx → EReal :=
  fun i => soft (row x (i 0)) c (i 1)

theorem assign_ix2 (x : (⟨2, ![131072, 512]⟩ : Shape).Idx → EReal) (c : (⟨2, ![512, 512]⟩ : Shape).Idx → EReal)
    (r : Fin 131072) (k : Fin 512) : assign x c (ix2 r k) = soft (row x r) c k := rfl

/-- The f32 word of 1.0 is the extended real 1. -/
theorem one_word : Ideal.ofBits .f32 0x3F800000#32 = 1 := IdealRules.sign_bit.ideal_onePat .f32

/-- Raising to the power 1 (spelt as its f32 word) is the identity on every extended real: −∞ and +∞ are fixed,
    and on a real it is the real power x¹ = x. -/
theorem pow_one_word (q : EReal) : Ideal.pow q (Ideal.ofBits .f32 0x3F800000#32) = q := by
  rw [one_word]
  induction q using EReal.rec with
  | bot => rfl
  | top => rw [Ideal.pow_top, if_pos zero_lt_one]
  | coe r =>
    show Ideal.pow (r : EReal) ((1 : ℝ) : EReal) = (r : EReal)
    rw [Ideal.pow_coe_coe]
    exact congrArg _ (Real.rpow_one r)

end Cert.SoftAssign

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.PayAssign.lean ====
/-
  The kernel body's stored value at an entry of its block.

  The body reads a block of 2048 points x0, the 512 centres cb and the row s of their squared norms, and stores, at
  (p, k), the weight of point p for centre k over the sum of point p's 512 weights. The weight is computed from the
  squared norm of row p of x0 (a lane sum kept as a column and spread back over the lanes), the entry k of s (one row
  spread over the 2048 points) and the inner product of row p of x0 with row k of cb (the matrix product with the
  transposed centres, accumulated into zeros).
-/
import proofs.«172761_j71159018160361_2_alg».proof.Proof.Gen.KernelIdeal.Skeleton
import proofs.«172761_j71159018160361_2_alg».proof.Proof.SoftAssign
import proofs.«172761_j71159018160361_2_alg».proof.Proof.LibRowSum
import proofs.«172761_j71159018160361_2_alg».proof.Proof.LibColumn
import proofs.«172761_j71159018160361_2_alg».proof.Proof.LibMatmul
import Idealize.ShloMosaic.Lib.ValueLayout
import Idealize.ShloMosaic.Lib.Pipeline.Value

noncomputable section

namespace Cert.KernelIdeal.PayAssign

open Cert.KernelIdeal Cert.KernelIdeal.Gen Idealize.ShloMosaic Idealize.ShloMosaic.ValueIdx
open Cert.SoftAssign

/-! ## The layout steps and the two reductions, at coordinates -/

/-- A lane sum of a [2048, 512] block, kept as a column and spread back over the 512 lanes, reads at (p, k) the sum
    of row p. -/
theorem rowsum_spread (y : FVec Ideal S2048x512 .f32) (hr : S2048x512.Reduces [1] S2048) (hφ : FKind.Formats .f32)
    (hacc : (0x00000000#32 : BitVec 32) = 0x00000000#32) (hc : S2048.ShapeCasts S2048x1)
    (hb : S2048x1.Broadcasts S2048x512) (p : Fin 2048) (k : Fin 512) :
    broadcastTo S2048x512 (shapeCast S2048x1 (multiReduction .add [1] S2048 y 0x00000000#32 hr hφ hacc) hc) hb (ix2 p k)
      = ∑ j : Fin 512, y (ix2 p j) :=
  (broadcastTo_a1_ab_apply _ hb p k).trans
    ((shapeCast_a_a1_apply _ hc p 0).trans (Cert.LibRowSum.multiReduction_add_row y _ hr hφ hacc p))

/-- The one row of squared norms, spread over the 2048 points, reads at (p, k) its entry k. -/
theorem norms_spread (s : FVec Ideal S1x512 .f32) (hc : S1x512.ShapeCasts S1x512) (hb : S1x512.Broadcasts S2048x512)
    (p : Fin 2048) (k : Fin 512) :
    broadcastTo S2048x512 (shapeCast S1x512 s hc) hb (ix2 p k) = s (ix2 (0 : Fin 1) k) := by
  rw [broadcastTo_1b_ab_apply, shapeCast_self]

/-! ## The matrix product: which operand entries the dimension numbers pair -/

theorem lhs0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product of the block (narrowed to bf16, the identity here) with the transposed centres, into zeros, reads at
    (p, k) the inner product of row p of the block with row k of the centres. -/
theorem cross_at (x0 : FVec Ideal S2048x512 .f32) (cb : FVec Ideal S512x512 .bf16) (hlt : FTy.bits .bf16 < FTy.bits .f32)
    (hc : S512x512.ShapeCasts S512x512) (ht : S512x512.Transposes [1, 0] S512x512) (p : Fin 2048) (k : Fin 512) :
    matmul dot_S2048x512_S512x512_S2048x512_1_0_0_1_n_n none (truncf .bf16 x0 hlt)
        (transpose S512x512 [1, 0] (shapeCast S512x512 cb hc) ht) (constant S2048x512 .f32 0x00000000#32) (ix2 p k)
      = dotp (row x0 p) (row cb k) := by
  refine (Cert.LibMatmul.matmul_zero_ix2 dot_S2048x512_S512x512_S2048x512_1_0_0_1_n_n none rfl rfl lhs0 lhs1 rhs0 rhs1
    (truncf .bf16 x0 hlt) (transpose S512x512 [1, 0] (shapeCast S512x512 cb hc) ht) (ix2 p k)).trans ?_
  refine Finset.sum_congr rfl fun j _ => ?_
  show x0 (ix2 p j) * transpose S512x512 [1, 0] (shapeCast S512x512 cb hc) ht (ix2 j k) = x0 (ix2 p j) * cb (ix2 k j)
  rw [transpose_ix2_apply, shapeCast_self]

/-! ## The stored value -/

/-- The body's stored value at (p, k): the weight of row p of the block for centre k — from the row's squared norm,
    entry k of the norms' row and the inner product with row k of the centres — over the sum of the row's weights. -/
theorem pay_at (x0 : Vec Ideal S2048x512 .f32) (cb : Vec Ideal S512x512 .bf16) (s : Vec Ideal S1x512 .f32)
    (p : Fin 2048) (k : Fin 512) :
    k0_pay1 (F := Ideal) x0 cb s (ix2 p k)
      = Ideal.div (weight (normSq (row x0 p)) (s (ix2 (0 : Fin 1) k)) (dotp (row x0 p) (row cb k)))
          (∑ k' : Fin 512, weight (normSq (row x0 p)) (s (ix2 (0 : Fin 1) k')) (dotp (row x0 p) (row cb k'))) := by
  unfold k0_pay1
  simp only [divf_apply, addf_apply, subf_apply, mulf_apply, maximumf_apply, broadcast_apply, norms_spread]
  rw [rowsum_spread (mulf x0 x0), cross_at x0 cb, rowsum_spread]
  refine congrArg₂ Ideal.div rfl (Finset.sum_congr rfl fun k' _ => ?_)
  simp only [divf_apply, addf_apply, subf_apply, mulf_apply, maximumf_apply, broadcast_apply, norms_spread]
  rw [rowsum_spread (mulf x0 x0), cross_at x0 cb]
  rfl

/-- A block's entry against the whole array: when row p of the block is row r of the points x, the block's centres
    are the centres c, and the norms' row holds the centres' squared norms, the stored value at (p, k) is the
    soft assignment of x and c at (r, k). -/
theorem block_eq (x : (⟨2, ![131072, 512]⟩ : Shape).Idx → EReal) (c : (⟨2, ![512, 512]⟩ : Shape).Idx → EReal)
    (x0 : Vec Ideal S2048x512 .f32) (cb : Vec Ideal S512x512 .bf16) (s : Vec Ideal S1x512 .f32)
    (r : Fin 131072) (p : Fin 2048) (k : Fin 512)
    (hx : ∀ j : Fin 512, x0 (ix2 p j) = x (ix2 r j))
    (hc : ∀ k' j : Fin 512, cb (ix2 k' j) = c (ix2 k' j))
    (hs : ∀ k' : Fin 512, s (ix2 (0 : Fin 1) k') = normSq (row c k')) :
    k0_pay1 (F := Ideal) x0 cb s (ix2 p k) = assign x c (ix2 r k) := by
  rw [pay_at, assign_ix2]
  have e0 : row x0 p = row x r := funext hx
  have e1 : ∀ k' : Fin 512, row cb k' = row c k' := fun k' => funext (hc k')
  simp only [e0, e1, hs]
  rfl

end Cert.KernelIdeal.PayAssign

end
-- ==== Proof.HostNorms.lean ====
/-
  What the region finds in the two arrays the host prepares before it.

  The host narrows the centres to bf16 (the identity on the extended reals) and takes, per centre, the sum of the
  squares of its 512 entries from the zero word, laid out as one row of 512. Read at coordinates: the narrowed array at
  (k, j) is the centres' entry (k, j), and the row at (0, k) is the squared norm of centre k.
-/
import proofs.«172761_j71159018160361_2_alg».proof.Proof.Gen.KernelIdeal.Frame
import proofs.«172761_j71159018160361_2_alg».proof.Proof.SoftAssign
import proofs.«172761_j71159018160361_2_alg».proof.Proof.LibRowSum
import Idealize.ShloMosaic.Lib.StableHlo.Run
import Idealize.ShloMosaic.Lib.Pipeline.Value

noncomputable section

namespace Cert.KernelIdeal.HostNorms

open Cert.KernelIdeal Cert.KernelIdeal.Gen Idealize.ShloMosaic Idealize.ShloMosaic.TcCoe Idealize.SL.Sem
open Idealize.ShloMosaic.StableHlo Idealize.ShloMosaic.ValueIdx
open Cert.SoftAssign

variable (m : (ℓ : Loc nD τ sig) → Buf (Elt Ideal) ℓ)

/-- The narrowed centres, as the region finds them. -/
theorem narrowed_eq (c : Dev nD) :
    (V m c main_v3 : S512x512.Idx → EReal)
      = (truncf (F := Ideal) .bf16 (m ((c : Thread nD τ).loc main_arg1) : FVec Ideal S512x512 .f32) bitsLt_bf16_f32 :
          FVec Ideal S512x512 .bf16) := by
  dsimp only [Gen.V, Gen.hostOps0]
  after_results
  try rfl

/-- The row of squared norms, as the region finds it. -/
theorem norms_eq (c : Dev nD) :
    (V m c main_v2 : S1x512.Idx → EReal)
      = broadcastInDim S1x512 ![1] bcast_S512_S1x512_1
          (Host.reduceAdd (mulf (m ((c : Thread nD τ).loc main_arg1) : FVec Ideal S512x512 .f32) (m ((c : Thread nD τ).loc main_arg1)))
            (constant (F := Ideal) S_ .f32 0x00000000#32) reducesTo_S512x512_S512_d1 h_S_) := by
  dsimp only [Gen.V, Gen.hostOps0]
  after_results
  try rfl

/-- The narrowed centres at (k, j) are the centres at (k, j). -/
theorem narrowed_at (c : Dev nD) (k j : Fin 512) :
    (V m c main_v3 : S512x512.Idx → EReal) (ix2 k j) = (m ((c : Thread nD τ).loc main_arg1) : S512x512.Idx → EReal) (ix2 k j) := by
  rw [narrowed_eq]
  rfl

/-- The row of squared norms at (0, k) is the squared norm of centre k. -/
theorem norms_at (c : Dev nD) (k : Fin 512) :
    (V m c main_v2 : S1x512.Idx → EReal) (ix2 (0 : Fin 1) k)
      = normSq (row (m ((c : Thread nD τ).loc main_arg1) : S512x512.Idx → EReal) k) := by
  rw [norms_eq]
  refine (broadcastInDim_apply _ bcast_S512_S1x512_1 _ (ix2 (0 : Fin 1) k) (ix1 k) (fun a => match a with
    | ⟨0, _⟩ => by show k.val = if (512 : Nat) = 1 then 0 else k.val; rw [if_neg (by decide)])).trans ?_
  simp only [Host.reduceAdd, Ideal.hostReduceAdd_def]
  rw [Cert.LibRowSum.hostReduceAdd_row reducesTo_S512x512_S512_d1 (by decide)]
  show Ideal.ofBits .f32 0x00000000#32 + _ = _
  rw [Ideal.ofBits_zero_f32, zero_add]
  rfl

end Cert.KernelIdeal.HostNorms

end
-- ==== Proof.Blocks.lean ====
/-
  From the 64 blocks to the whole array.

  Grid point t reads rows 2048·t … 2048·t + 2047 of the points, the whole narrowed centres and the whole row of
  squared norms, and writes back rows 2048·t … 2048·t + 2047 of the result. So what point t writes back is block t of
  the soft assignment of the two argument arrays; the 64 blocks cover the result (row r lies in block r / 2048), hence
  after the run the result array is the soft assignment.
-/
import proofs.«172761_j71159018160361_2_alg».proof.Proof.Gen.KernelIdeal.Value
import proofs.«172761_j71159018160361_2_alg».proof.Proof.PayAssign
import proofs.«172761_j71159018160361_2_alg».proof.Proof.HostNorms

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.SoftAssign

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 64 grid points: the points' and the result's block index is (t, 0), the centres'
    and the norms' is (0, 0). -/
theorem block_indices : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The three input blocks at a point, read off the arguments -/

/-- Row p of the points' block at point t is row 2048·t + p of the points. -/
theorem points_block_at (c : Dev nD) (t : Fin cfg0.N) (p : Fin 2048) (j : Fin 512) (r : Fin 131072)
    (hr : r.val = t.val * 2048 + p.val) :
    (iblk m c 0 t : Vec Ideal S2048x512 .f32) (ix2 p j)
      = (m ((c : Thread nD τ).loc main_arg0) : S131072x512.Idx → EReal) (ix2 r j) := by
  obtain ⟨-, -, e0, e1, -⟩ := block_indices t
  show V m c main_arg0 (((cfg0.win 0).blk t).view.emb (ix2 p j)) = _
  rw [V_main_arg0]
  exact congrArg (m ((c : Thread nD τ).loc main_arg0)) (funext fun a => Fin.ext (by
    match a with
    | ⟨0, _⟩ => show win0_0.index t (0 : Fin 2) * 2048 + 1 * p.val = r.val; omega
    | ⟨1, _⟩ => show win0_0.index t (1 : Fin 2) * 512 + 1 * j.val = j.val; omega))

/-- The centres' block at any point is the centres. -/
theorem centres_block_at (c : Dev nD) (t : Fin cfg0.N) (k j : Fin 512) :
    (iblk m c 1 t : Vec Ideal S512x512 .bf16) (ix2 k j)
      = (m ((c : Thread nD τ).loc main_arg1) : S512x512.Idx → EReal) (ix2 k j) := by
  obtain ⟨-, -, -, -, e0, e1, -⟩ := block_indices t
  show V m c main_v3 (((cfg0.win 1).blk t).view.emb (ix2 k j)) = _
  have he : ((cfg0.win 1).blk t).view.emb (ix2 k j) = (ix2 k j : S512x512.Idx) := funext fun a => Fin.ext (by
    match a with
    | ⟨0, _⟩ => show win0_1.index t (0 : Fin 2) * 512 + 1 * k.val = k.val; omega
    | ⟨1, _⟩ => show win0_1.index t (1 : Fin 2) * 512 + 1 * j.val = j.val; omega)
  rw [he]
  exact HostNorms.narrowed_at m c k j

/-- The norms' block at any point holds the centres' squared norms. -/
theorem norms_block_at (c : Dev nD) (t : Fin cfg0.N) (k : Fin 512) :
    (iblk m c 2 t : Vec Ideal S1x512 .f32) (ix2 (0 : Fin 1) k)
      = normSq (row (m ((c : Thread nD τ).loc main_arg1) : S512x512.Idx → EReal) k) := by
  obtain ⟨-, -, -, -, -, -, e0, e1⟩ := block_indices t
  show V m c main_v2 (((cfg0.win 2).blk t).view.emb (ix2 (0 : Fin 1) k)) = _
  have he : ((cfg0.win 2).blk t).view.emb (ix2 (0 : Fin 1) k) = (ix2 (0 : Fin 1) k : S1x512.Idx) := funext fun a => Fin.ext (by
    match a with
    | ⟨0, _⟩ => show win0_2.index t (0 : Fin 2) * 1 + 1 * 0 = 0; omega
    | ⟨1, _⟩ => show win0_2.index t (1 : Fin 2) * 512 + 1 * k.val = k.val; omega)
  rw [he]
  exact HostNorms.norms_at m c k

/-! ## What a point writes back -/

/-- Point t writes back block t of the soft assignment of the two arguments. -/
theorem flushed_eq (c : Dev nD) (t : Fin cfg0.N) :
    (dats m 0 c).flushed 3 t = ((cfg0.win 3).blk t).view.read (Elt Ideal)
      (assign (m ((c : Thread nD τ).loc main_arg0)) (m ((c : Thread nD τ).loc main_arg1))) := by
  rw [flushed3]
  unfold out0_3
  rw [View.canon_unit_zero zero_offsets]
  simp only [View.ld_unit_zero (S := S2048x512) zero_offsets, View.ld_unit_zero (S := S512x512) zero_offsets,
    View.ld_unit_zero (S := S1x512) zero_offsets]
  funext y
  obtain ⟨p, k, rfl⟩ : ∃ (p : Fin 2048) (k : Fin 512), y = ix2 p k := ⟨y 0, y 1, eq_ix2 y⟩
  obtain ⟨e0, e1, -⟩ := block_indices t
  have ht : t.val < 64 := t.isLt
  obtain ⟨r, hr⟩ : ∃ r : Fin 131072, r.val = t.val * 2048 + p.val := ⟨⟨t.val * 2048 + p.val, by have := p.isLt; omega⟩, rfl⟩
  show k0_pay1 (F := Ideal) (iblk m c 0 t) (iblk m c 1 t) (iblk m c 2 t) (ix2 p k)
    = assign (m ((c : Thread nD τ).loc main_arg0)) (m ((c : Thread nD τ).loc main_arg1)) (((cfg0.win 3).blk t).view.emb (ix2 p k))
  have he : ((cfg0.win 3).blk t).view.emb (ix2 p k) = (ix2 r k : S131072x512.Idx) := funext fun a => Fin.ext (by
    match a with
    | ⟨0, _⟩ => show win0_3.index t (0 : Fin 2) * 2048 + 1 * p.val = r.val; omega
    | ⟨1, _⟩ => show win0_3.index t (1 : Fin 2) * 512 + 1 * k.val = k.val; omega)
  rw [he]
  exact PayAssign.block_eq _ _ (iblk m c 0 t) (iblk m c 1 t) (iblk m c 2 t) r p k
    (fun j => points_block_at m c t p j r hr) (fun k' j => centres_block_at m c t k' j) (fun k' => norms_block_at m c t k')

/-! ## The cover, and the array after the run -/

/-- An index of the result is in point t's block iff each coordinate is in the block's range on its axis. -/
theorem mem_block (t : Fin cfg0.N) (i : S131072x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v4).slice (win0_3.rect t)).set ↔ _
  rw [View.set_slice_whole, Rect.mem_set_unit]
  exact Iff.rfl

/-- Every index of the result lies in the block of the point its row selects. -/
theorem covered (i : S131072x512.Idx) :
    ∃ t : Fin cfg0.N, (cfg0.win 3).flush t = true ∧ i ∈ ((cfg0.win 3).blk t).view.set := by
  have h0 : (i 0).val < 131072 := (i 0).isLt
  have h1 : (i 1).val < 512 := (i 1).isLt
  obtain ⟨t, ht⟩ : ∃ t : Fin cfg0.N, t.val = (i 0).val / 2048 := ⟨⟨(i 0).val / 2048, by show _ < 64; omega⟩, rfl⟩
  obtain ⟨e0, e1, -⟩ := block_indices t
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- The result array after the run is the soft assignment of the two arguments. -/
theorem final (c : Dev nD) :
    (dats m 0 c).arrAt 3 cfg0.N = assign (m ((c : Thread nD τ).loc main_arg0)) (m ((c : Thread nD τ).loc main_arg1)) :=
  (dats m 0 c).arrAt_eq_of_cover 3 (assign (m ((c : Thread nD τ).loc main_arg0)) (m ((c : Thread nD τ).loc main_arg1)))
    (fun t _ => flushed_eq m c t) covered

/-- The kernel's run: it terminates with the result array at the soft assignment of the arguments, the arguments
    unchanged. -/
theorem run : θ_run defs (onTc (τ := τ) (main (F := Ideal))) ⟨m, fun _ => 0, ρ⟩ fun r => ∀ c : Dev nD,
      r.2.mem ((c : Thread nD τ).loc main_v4) = assign (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.RefAssign.lean ====
/-
  The reference's result is the soft assignment.

  Its host operations are read one at a time at an index written by coordinates: the two squared norms (row sums of
  the squares, the initial value the zero word), the inner products (the product with the transposed centres, a sum
  over the shared axis), the clamped distance, the weight, its power 1 (the identity), the row sum of the weights and
  the final quotient.
-/
import proofs.«172761_j71159018160361_2_alg».proof.Proof.Gen.ReferenceIdeal.Read
import proofs.«172761_j71159018160361_2_alg».proof.Proof.SoftAssign

noncomputable section

namespace Cert.ReferenceIdeal.RefAssign

open Cert.ReferenceIdeal Cert.ReferenceIdeal.Gen Cert.ReferenceIdeal.Read Idealize.ShloMosaic Idealize.ShloMosaic.ValueIdx
open Cert.SoftAssign

variable (x : (⟨S131072x512, .f32⟩ : BufTy).Contents (Elt Ideal)) (c : (⟨S512x512, .f32⟩ : BufTy).Contents (Elt Ideal))

/-! ## The indices the layout operations read, by coordinates -/

theorem i_v1 (r : Fin 131072) (j : Fin 512) : idx_main_v1 (ix1 r) j = ix2 r j :=
  funext fun a => Fin.ext (by match a with | ⟨0, _⟩ => rfl | ⟨1, _⟩ => rfl)
theorem i_v2 (r : Fin 131072) (u : Fin 1) : idx_main_v2 (ix2 r u) = ix1 r :=
  funext fun a => Fin.ext (by match a with | ⟨0, _⟩ => rfl)
theorem i_v4 (k : Fin 512) (j : Fin 512) : idx_main_v4 (ix1 k) j = ix2 k j :=
  funext fun a => Fin.ext (by match a with | ⟨0, _⟩ => rfl | ⟨1, _⟩ => rfl)
theorem i_v5 (u : Fin 1) (k : Fin 512) : idx_main_v5 (ix2 u k) = ix1 k :=
  funext fun a => Fin.ext (by match a with | ⟨0, _⟩ => rfl)
theorem i_v6 (r : Fin 131072) (k : Fin 512) : idx_main_v6 (ix2 r k) = ix2 r (0 : Fin 1) :=
  funext fun a => Fin.ext (by match a with | ⟨0, _⟩ => rfl | ⟨1, _⟩ => rfl)
theorem i_v7 (r : Fin 131072) (k : Fin 512) : idx_main_v7 (ix2 r k) = ix2 (0 : Fin 1) k :=
  funext fun a => Fin.ext (by match a with | ⟨0, _⟩ => rfl | ⟨1, _⟩ => rfl)
theorem i_v9 (j k : Fin 512) : idx_main_v9 (ix2 j k) = ix2 k j :=
  funext fun a => Fin.ext (by match a with | ⟨0, _⟩ => rfl | ⟨1, _⟩ => rfl)
theorem i_l10 (r : Fin 131072) (k j : Fin 512) : lidx_main_v10 (ix2 r k) j = ix2 r j :=
  funext fun a => Fin.ext (by match a with | ⟨0, _⟩ => rfl | ⟨1, _⟩ => rfl)
theorem i_r10 (r : Fin 131072) (k j : Fin 512) : ridx_main_v10 (ix2 r k) j = ix2 j k :=
  funext fun a => Fin.ext (by match a with | ⟨0, _⟩ => rfl | ⟨1, _⟩ => rfl)
theorem i_v24 (r : Fin 131072) (k : Fin 512) : idx_main_v24 (ix1 r) k = ix2 r k :=
  funext fun a => Fin.ext (by match a with | ⟨0, _⟩ => rfl | ⟨1, _⟩ => rfl)
theorem i_v25 (r : Fin 131072) (u : Fin 1) : idx_main_v25 (ix2 r u) = ix1 r :=
  funext fun a => Fin.ext (by match a with | ⟨0, _⟩ => rfl)
theorem i_v26 (r : Fin 131072) (k : Fin 512) : idx_main_v26 (ix2 r k) = ix2 r (0 : Fin 1) :=
  funext fun a => Fin.ext (by match a with | ⟨0, _⟩ => rfl | ⟨1, _⟩ => rfl)

/-! ## The stages, at coordinates -/

/-- The squared norm of point r: the row sum of the squares, from the zero word. -/
theorem x2_at (r : Fin 131072) : val_main_v1 (F := Ideal) x (ix1 r) = normSq (row x r) := by
  rw [val_main_v1_apply, val_main_cst_apply, Ideal.ofBits_def, Ideal.ofBits_zero_f32, zero_add]
  refine Finset.sum_congr rfl fun j _ => ?_
  rw [i_v1, val_main_v0_apply]
  rfl

/-- The squared norm of centre k. -/
theorem c2_at (k : Fin 512) : val_main_v4 (F := Ideal) c (ix1 k) = normSq (row c k) := by
  rw [val_main_v4_apply, val_main_cst_0_apply, Ideal.ofBits_def, Ideal.ofBits_zero_f32, zero_add]
  refine Finset.sum_congr rfl fun j _ => ?_
  rw [i_v4, val_main_v3_apply]
  rfl

/-- The inner product of point r and centre k: the product with the transposed centres. -/
theorem dot_at (r : Fin 131072) (k : Fin 512) : val_main_v10 (F := Ideal) x c (ix2 r k) = dotp (row x r) (row c k) := by
  rw [val_main_v10_apply]
  refine Finset.sum_congr rfl fun j _ => ?_
  rw [i_l10, i_r10, val_main_v9_apply, i_v9]
  rfl

/-- The weight of point r for centre k, after the power 1. -/
theorem wt_at (r : Fin 131072) (k : Fin 512) : val_main_v23 (F := Ideal) x c (ix2 r k) = wt (row x r) c k := by
  rw [val_main_v23_apply, val_main_v22_apply, val_main_cst_6_apply, val_main_v21_apply, val_main_v20_apply,
    val_main_cst_5_apply, val_main_v19_apply, val_main_v18_apply, val_main_cst_4_apply, val_main_v17_apply,
    val_main_v16_apply, val_main_cst_3_apply, val_main_v15_apply, val_main_v14_apply, val_main_cst_2_apply,
    val_main_v13_apply, val_main_v12_apply, val_main_v11_apply, val_main_cst_1_apply, val_main_v8_apply,
    val_main_v6_apply, i_v6, val_main_v2_apply, i_v2, x2_at, val_main_v7_apply, i_v7, val_main_v5_apply, i_v5, c2_at,
    dot_at]
  simp only [Ideal.hostPowf_def, Ideal.hostDivf_def, Ideal.addf_def, Ideal.subf_def, Ideal.mulf_def,
    Ideal.maximumf_def, Ideal.ofBits_def, pow_one_word]
  rfl

/-- The sum of the weights of point r. -/
theorem wsum_at (r : Fin 131072) : val_main_v24 (F := Ideal) x c (ix1 r) = ∑ k' : Fin 512, wt (row x r) c k' := by
  rw [val_main_v24_apply, val_main_cst_7_apply, Ideal.ofBits_def, Ideal.ofBits_zero_f32, zero_add]
  refine Finset.sum_congr rfl fun k' _ => ?_
  rw [i_v24, wt_at]

/-- The reference's result array is the soft assignment of its two arguments. -/
theorem result_eq : val_main_v27 (F := Ideal) x c = assign x c := by
  funext i
  obtain ⟨r, k, rfl⟩ : ∃ (r : Fin 131072) (k : Fin 512), i = ix2 r k := ⟨i 0, i 1, eq_ix2 i⟩
  rw [val_main_v27_apply, wt_at, val_main_v26_apply, i_v26, val_main_v25_apply, i_v25, wsum_at, Ideal.hostDivf_def]
  rfl

end Cert.ReferenceIdeal.RefAssign

end
-- ==== Proof.lean ====
/-
  The kernel and its reference compute one function at the exact extended reals.

  Both take points x (131072 × 512) and cluster centres c (512 × 512) and return, for point r and centre k, the
  Student-t weight 1 / (1 + max (|x_r|² + |c_k|² − 2 ⟨x_r, c_k⟩, 0) / 1) divided by the sum of point r's 512
  weights. The kernel computes the centres' squared norms once on the host, narrows the centres to bf16 (the identity
  here), and then works through 64 blocks of 2048 points, each written back to its own rows of the result; the
  reference computes the whole arrays at once and raises the weights to the power 1 (the identity on every extended
  real) before normalising. The lane sums, the host's sums from the zero word, the matrix product into zeros and the
  host's product are all the same finite sums, so no algebraic law beyond 0 + a = a and a¹ = a is needed, and the
  inputs' finiteness is never used.

  The frames of the two kernel programs are the generated ones; the reference's frame is its generated run with the
  result dropped; the idealisation rewrote nothing, so there is nothing to preserve.
-/
import proofs.«172761_j71159018160361_2_alg».proof.Defs
import proofs.«172761_j71159018160361_2_alg».proof.Proof.Gen.Kernel
import proofs.«172761_j71159018160361_2_alg».proof.Proof.Gen.Kernel.Skeleton
import proofs.«172761_j71159018160361_2_alg».proof.Proof.Gen.Kernel.Launch
import proofs.«172761_j71159018160361_2_alg».proof.Proof.Gen.Kernel.Points
import proofs.«172761_j71159018160361_2_alg».proof.Proof.Gen.Kernel.Frame
import proofs.«172761_j71159018160361_2_alg».proof.Proof.Gen.KernelIdeal
import proofs.«172761_j71159018160361_2_alg».proof.Proof.Gen.KernelIdeal.Skeleton
import proofs.«172761_j71159018160361_2_alg».proof.Proof.Gen.KernelIdeal.Launch
import proofs.«172761_j71159018160361_2_alg».proof.Proof.Gen.KernelIdeal.Points
import proofs.«172761_j71159018160361_2_alg».proof.Proof.Gen.KernelIdeal.Frame
import proofs.«172761_j71159018160361_2_alg».proof.Proof.Gen.ReferenceIdeal
import proofs.«172761_j71159018160361_2_alg».proof.Proof.Gen.Pre_finite_inputs
import proofs.«172761_j71159018160361_2_alg».proof.Proof.Gen.KernelIdeal.Value
import proofs.«172761_j71159018160361_2_alg».proof.Proof.Gen.ReferenceIdeal.Run
import proofs.«172761_j71159018160361_2_alg».proof.Proof.Gen.ReferenceIdeal.Read
import proofs.«172761_j71159018160361_2_alg».proof.Proof.Blocks
import proofs.«172761_j71159018160361_2_alg».proof.Proof.RefAssign
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealised kernel. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the points and the centres, both programs end with the result array at the soft
    assignment of those two arrays. -/
theorem algebraic : Cert.algebraic_KernelIdeal_ReferenceIdeal := by
  intro m ρ m' ρ' _ hagree
  refine ⟨fun c => Cert.SoftAssign.assign
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefAssign.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
